-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S4194304 : Shape := ⟨1, ![4194304]⟩
abbrev S8192 : Shape := ⟨1, ![8192]⟩
abbrev S2x16384 : Shape := ⟨2, ![2, 16384]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S4194304 : S_.BroadcastsInDim S4194304 (![] : Fin 0 → Fin S4194304.rank)
  reducesTo_S4194304_S_d0 : S4194304.ReducesTo [0] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S256x8192 .f32) (main_arg1 : FVec F S4194304 .f32) (main_arg2 : FVec F S8192 .f32) (main_arg3 : IVec S2x16384 32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S4194304 .f32 := Host.absf main_arg1
  let main_cst_0 : FVec F S_ .f32 := constant S_ .f32 0x7F800000#32
  let main_v5 : FVec F S4194304 .f32 := broadcastInDim S4194304 ![] bcast_S_S4194304 main_cst_0
  let main_v6 : IVec S4194304 1 := cmpf .olt main_v4 main_v5
  let main_c_1 : IVec S_ 1 := constantI S_ 1 1#1
  let main_v7 : IVec S_ 1 := (fun x v => Host.reduce IntOp.andi x v reducesTo_S4194304_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S256x8192 : Shape := ⟨2, ![256, 8192]⟩
abbrev S4194304 : Shape := ⟨1, ![4194304]⟩
abbrev S8192 : Shape := ⟨1, ![8192]⟩
abbrev S2x16384 : Shape := ⟨2, ![2, 16384]⟩
abbrev S1x16384 : Shape := ⟨2, ![1, 16384]⟩
abbrev S16384 : Shape := ⟨1, ![16384]⟩
abbrev S16 : Shape := ⟨1, ![16]⟩
abbrev S16384x1x1 : Shape := ⟨3, ![16384, 1, 1]⟩
abbrev S_ : Shape := ⟨0, ![]⟩
abbrev S1x1x16 : Shape := ⟨3, ![1, 1, 16]⟩
abbrev S16384x1x16 : Shape := ⟨3, ![16384, 1, 16]⟩
abbrev S16384x16x16 : Shape := ⟨3, ![16384, 16, 16]⟩
abbrev S1x16x1 : Shape := ⟨3, ![1, 16, 1]⟩
abbrev S16384x16x1 : Shape := ⟨3, ![16384, 16, 1]⟩
abbrev S8192x8192 : Shape := ⟨2, ![8192, 8192]⟩
abbrev S4194304x1 : Shape := ⟨2, ![4194304, 1]⟩
abbrev S4194304x2 : Shape := ⟨2, ![4194304, 2]⟩
abbrev S1x8192 : Shape := ⟨2, ![1, 8192]⟩
abbrev S256x2048 : Shape := ⟨2, ![256, 2048]⟩
abbrev S2048x2048 : Shape := ⟨2, ![2048, 2048]⟩
abbrev S1x2048 : Shape := ⟨2, ![1, 2048]⟩

abbrev nBuf : Space → Nat
  | .hbm => 54
  | .vmem => 9
  | .smem => 0
  | _ => 0

abbrev bufTy : (tb : Table) → Fin (tcTables nBuf tb) → BufTy
  | .hbm, ⟨0, _⟩ => ⟨S256x8192, .f32⟩
  | .hbm, ⟨1, _⟩ => ⟨S4194304, .f32⟩
  | .hbm, ⟨2, _⟩ => ⟨S8192, .f32⟩
  | .hbm, ⟨3, _⟩ => ⟨S2x16384, .i32⟩
  | .hbm, ⟨4, _⟩ => ⟨S1x16384, .i32⟩
  | .hbm, ⟨5, _⟩ => ⟨S16384, .i32⟩
  | .hbm, ⟨6, _⟩ => ⟨S1x16384, .i32⟩
  | .hbm, ⟨7, _⟩ => ⟨S16384, .i32⟩
  | .hbm, ⟨8, _⟩ => ⟨S16, .i32⟩
  | .hbm, ⟨9, _⟩ => ⟨S16, .i32⟩
  | .hbm, ⟨10, _⟩ => ⟨S16384x1x1, .i32⟩
  | .hbm, ⟨11, _⟩ => ⟨S_, .i32⟩
  | .hbm, ⟨12, _⟩ => ⟨S16384x1x1, .i32⟩
  | .hbm, ⟨13, _⟩ => ⟨S16384x1x1, .i32⟩
  | .hbm, ⟨14, _⟩ => ⟨S1x1x16, .i32⟩
  | .hbm, ⟨15, _⟩ => ⟨S16384x1x16, .i32⟩
  | .hbm, ⟨16, _⟩ => ⟨S16384x1x16, .i32⟩
  | .hbm, ⟨17, _⟩ => ⟨S16384x1x16, .i32⟩
  | .hbm, ⟨18, _⟩ => ⟨S16384x16x16, .i32⟩
  | .hbm, ⟨19, _⟩ => ⟨S4194304, .i32⟩
  | .hbm, ⟨20, _⟩ => ⟨S16384x1x1, .i32⟩
  | .hbm, ⟨21, _⟩ => ⟨S_, .i32⟩
  | .hbm, ⟨22, _⟩ => ⟨S16384x1x1, .i32⟩
  | .hbm, ⟨23, _⟩ => ⟨S16384x1x1, .i32⟩
  | .hbm, ⟨24, _⟩ => ⟨S1x16x1, .i32⟩
  | .hbm, ⟨25, _⟩ => ⟨S16384x16x1, .i32⟩
  | .hbm, ⟨26, _⟩ => ⟨S16384x16x1, .i32⟩
  | .hbm, ⟨27, _⟩ => ⟨S16384x16x1, .i32⟩
  | .hbm, ⟨28, _⟩ => ⟨S16384x16x16, .i32⟩
  | .hbm, ⟨29, _⟩ => ⟨S4194304, .i32⟩
  | .hbm, ⟨30, _⟩ => ⟨S_, .f32⟩
  | .hbm, ⟨31, _⟩ => ⟨S8192x8192, .f32⟩
  | .hbm, ⟨32, _⟩ => ⟨S_, .i32⟩
  | .hbm, ⟨33, _⟩ => ⟨S4194304, .i32⟩
  | .hbm, ⟨34, _⟩ => ⟨S4194304, .i1⟩
  | .hbm, ⟨35, _⟩ => ⟨S_, .i32⟩
  | .hbm, ⟨36, _⟩ => ⟨S4194304, .i32⟩
  | .hbm, ⟨37, _⟩ => ⟨S4194304, .i32⟩
  | .hbm, ⟨38, _⟩ => ⟨S4194304, .i32⟩
  | .hbm, ⟨39, _⟩ => ⟨S_, .i32⟩
  | .hbm, ⟨40, _⟩ => ⟨S4194304, .i32⟩
  | .hbm, ⟨41, _⟩ => ⟨S4194304, .i1⟩
  | .hbm, ⟨42, _⟩ => ⟨S_, .i32⟩
  | .hbm, ⟨43, _⟩ => ⟨S4194304, .i32⟩
  | .hbm, ⟨44, _⟩ => ⟨S4194304, .i32⟩
  | .hbm, ⟨45, _⟩ => ⟨S4194304, .i32⟩
  | .hbm, ⟨46, _⟩ => ⟨S4194304x1, .i32⟩
  | .hbm, ⟨47, _⟩ => ⟨S4194304x1, .i32⟩
  | .hbm, ⟨48, _⟩ => ⟨S4194304x2, .i32⟩
  | .hbm, ⟨49, _⟩ => ⟨S8192x8192, .f32⟩
  | .hbm, ⟨50, _⟩ => ⟨S256x8192, .bf16⟩
  | .hbm, ⟨51, _⟩ => ⟨S8192x8192, .bf16⟩
  | .hbm, ⟨52, _⟩ => ⟨S1x8192, .f32⟩
  | .hbm, ⟨53, _⟩ => ⟨S256x8192, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S2x16384_S1x16384_0_0 : S2x16384.Slices ![0, 0] S1x16384
  shapeCasts_S1x16384_S16384 : S1x16384.ShapeCasts S16384
  slices_S2x16384_S1x16384_1_0 : S2x16384.Slices ![1, 0] S1x16384
  bcast_S16384_S16384x1x1_0 : S16384.BroadcastsInDim S16384x1x1 (![0] : Fin 1 → Fin S16384x1x1.rank)
  bcast_S_S16384x1x1 : S_.BroadcastsInDim S16384x1x1 (![] : Fin 0 → Fin S16384x1x1.rank)
  bcast_S16_S1x1x16_2 : S16.BroadcastsInDim S1x1x16 (![2] : Fin 1 → Fin S1x1x16.rank)
  bcast_S16384x1x1_S16384x1x16_0_1_2 : S16384x1x1.BroadcastsInDim S16384x1x16 (![0, 1, 2] : Fin 3 → Fin S16384x1x16.rank)
  bcast_S1x1x16_S16384x1x16_0_1_2 : S1x1x16.BroadcastsInDim S16384x1x16 (![0, 1, 2] : Fin 3 → Fin S16384x1x16.rank)
  bcast_S16384x1x16_S16384x16x16_0_1_2 : S16384x1x16.BroadcastsInDim S16384x16x16 (![0, 1, 2] : Fin 3 → Fin S16384x16x16.rank)
  shapeCasts_S16384x16x16_S4194304 : S16384x16x16.ShapeCasts S4194304
  bcast_S16_S1x16x1_1 : S16.BroadcastsInDim S1x16x1 (![1] : Fin 1 → Fin S1x16x1.rank)
  bcast_S16384x1x1_S16384x16x1_0_1_2 : S16384x1x1.BroadcastsInDim S16384x16x1 (![0, 1, 2] : Fin 3 → Fin S16384x16x1.rank)
  bcast_S1x16x1_S16384x16x1_0_1_2 : S1x16x1.BroadcastsInDim S16384x16x1 (![0, 1, 2] : Fin 3 → Fin S16384x16x1.rank)
  bcast_S16384x16x1_S16384x16x16_0_1_2 : S16384x16x1.BroadcastsInDim S16384x16x16 (![0, 1, 2] : Fin 3 → Fin S16384x16x16.rank)
  bcast_S_S8192x8192 : S_.BroadcastsInDim S8192x8192 (![] : Fin 0 → Fin S8192x8192.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  bitsLt_bf16_f32 : FTy.bits .bf16 < FTy.bits .f32
  shapeCasts_S8192_S1x8192 : S8192.ShapeCasts S1x8192
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  scatter_S8192x8192_S4194304x2_S4194304_n_01_01_1_wf : ScatterDims.WF S8192x8192 S4194304x2 S4194304 [] [0, 1] [0, 1] 1
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x8192.size a
  hwx0_0 : ∀ i : grid0.Coords, EltTy.bits .bf16 = 32 ∨ (Rect.block (s := S256x8192) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x8192.size a
  hwx0_1 : ∀ i : grid0.Coords, EltTy.bits .bf16 = 32 ∨ (Rect.block (s := S8192x8192) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x8192.size a
  hwx0_3 : ∀ i : grid0.Coords, EltTy.bits .f32 = 32 ∨ (Rect.block (s := S256x8192) S256x2048.size (cc0_transform_3 i) (hinb0_3 i)).WholeWords (EltTy.packing .f32)

variable [Facts₀]

def scatter_S8192x8192_S4194304x2_S4194304_n_01_01_1 : ScatterDims S8192x8192 S4194304x2 S4194304 where
  updateWindowDims := []
  insertedWindowDims := [0, 1]
  scatterDimsToOperandDims := [0, 1]
  indexVectorDim := 1
  wf := scatter_S8192x8192_S4194304x2_S4194304_n_01_01_1_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v39) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x8192 : Shape := ⟨2, ![256, 8192]⟩
abbrev S4194304 : Shape := ⟨1, ![4194304]⟩
abbrev S8192 : Shape := ⟨1, ![8192]⟩
abbrev S2x16384 : Shape := ⟨2, ![2, 16384]⟩
abbrev S1x16384 : Shape := ⟨2, ![1, 16384]⟩
abbrev S16384 : Shape := ⟨1, ![16384]⟩
abbrev S16 : Shape := ⟨1, ![16]⟩
abbrev S16384x1x1 : Shape := ⟨3, ![16384, 1, 1]⟩
abbrev S_ : Shape := ⟨0, ![]⟩
abbrev S1x1x16 : Shape := ⟨3, ![1, 1, 16]⟩
abbrev S16384x1x16 : Shape := ⟨3, ![16384, 1, 16]⟩
abbrev S16384x16x16 : Shape := ⟨3, ![16384, 16, 16]⟩
abbrev S1x16x1 : Shape := ⟨3, ![1, 16, 1]⟩
abbrev S16384x16x1 : Shape := ⟨3, ![16384, 16, 1]⟩
abbrev S8192x8192 : Shape := ⟨2, ![8192, 8192]⟩
abbrev S4194304x1 : Shape := ⟨2, ![4194304, 1]⟩
abbrev S4194304x2 : Shape := ⟨2, ![4194304, 2]⟩
abbrev S1x8192 : Shape := ⟨2, ![1, 8192]⟩

abbrev nBuf : Space → Nat
  | .hbm => 55
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S4194304, .f32⟩
  | .hbm, ⟨2, _⟩ => ⟨S8192, .f32⟩
  | .hbm, ⟨3, _⟩ => ⟨S2x16384, .i32⟩
  | .hbm, ⟨4, _⟩ => ⟨S1x16384, .i32⟩
  | .hbm, ⟨5, _⟩ => ⟨S16384, .i32⟩
  | .hbm, ⟨6, _⟩ => ⟨S1x16384, .i32⟩
  | .hbm, ⟨7, _⟩ => ⟨S16384, .i32⟩
  | .hbm, ⟨8, _⟩ => ⟨S16, .i32⟩
  | .hbm, ⟨9, _⟩ => ⟨S16, .i32⟩
  | .hbm, ⟨10, _⟩ => ⟨S16384x1x1, .i32⟩
  | .hbm, ⟨11, _⟩ => ⟨S_, .i32⟩
  | .hbm, ⟨12, _⟩ => ⟨S16384x1x1, .i32⟩
  | .hbm, ⟨13, _⟩ => ⟨S16384x1x1, .i32⟩
  | .hbm, ⟨14, _⟩ => ⟨S1x1x16, .i32⟩
  | .hbm, ⟨15, _⟩ => ⟨S16384x1x16, .i32⟩
  | .hbm, ⟨16, _⟩ => ⟨S16384x1x16, .i32⟩
  | .hbm, ⟨17, _⟩ => ⟨S16384x1x16, .i32⟩
  | .hbm, ⟨18, _⟩ => ⟨S16384x16x16, .i32⟩
  | .hbm, ⟨19, _⟩ => ⟨S4194304, .i32⟩
  | .hbm, ⟨20, _⟩ => ⟨S16384x1x1, .i32⟩
  | .hbm, ⟨21, _⟩ => ⟨S_, .i32⟩
  | .hbm, ⟨22, _⟩ => ⟨S16384x1x1, .i32⟩
  | .hbm, ⟨23, _⟩ => ⟨S16384x1x1, .i32⟩
  | .hbm, ⟨24, _⟩ => ⟨S1x16x1, .i32⟩
  | .hbm, ⟨25, _⟩ => ⟨S16384x16x1, .i32⟩
  | .hbm, ⟨26, _⟩ => ⟨S16384x16x1, .i32⟩
  | .hbm, ⟨27, _⟩ => ⟨S16384x16x1, .i32⟩
  | .hbm, ⟨28, _⟩ => ⟨S16384x16x16, .i32⟩
  | .hbm, ⟨29, _⟩ => ⟨S4194304, .i32⟩
  | .hbm, ⟨30, _⟩ => ⟨S_, .f32⟩
  | .hbm, ⟨31, _⟩ => ⟨S8192x8192, .f32⟩
  | .hbm, ⟨32, _⟩ => ⟨S_, .i32⟩
  | .hbm, ⟨33, _⟩ => ⟨S4194304, .i32⟩
  | .hbm, ⟨34, _⟩ => ⟨S4194304, .i1⟩
  | .hbm, ⟨35, _⟩ => ⟨S_, .i32⟩
  | .hbm, ⟨36, _⟩ => ⟨S4194304, .i32⟩
  | .hbm, ⟨37, _⟩ => ⟨S4194304, .i32⟩
  | .hbm, ⟨38, _⟩ => ⟨S4194304, .i32⟩
  | .hbm, ⟨39, _⟩ => ⟨S_, .i32⟩
  | .hbm, ⟨40, _⟩ => ⟨S4194304, .i32⟩
  | .hbm, ⟨41, _⟩ => ⟨S4194304, .i1⟩
  | .hbm, ⟨42, _⟩ => ⟨S_, .i32⟩
  | .hbm, ⟨43, _⟩ => ⟨S4194304, .i32⟩
  | .hbm, ⟨44, _⟩ => ⟨S4194304, .i32⟩
  | .hbm, ⟨45, _⟩ => ⟨S4194304, .i32⟩
  | .hbm, ⟨46, _⟩ => ⟨S4194304x1, .i32⟩
  | .hbm, ⟨47, _⟩ => ⟨S4194304x1, .i32⟩
  | .hbm, ⟨48, _⟩ => ⟨S4194304x2, .i32⟩
  | .hbm, ⟨49, _⟩ => ⟨S8192x8192, .f32⟩
  | .hbm, ⟨50, _⟩ => ⟨S8192x8192, .f32⟩
  | .hbm, ⟨51, _⟩ => ⟨S256x8192, .f32⟩
  | .hbm, ⟨52, _⟩ => ⟨S1x8192, .f32⟩
  | .hbm, ⟨53, _⟩ => ⟨S256x8192, .f32⟩
  | .hbm, ⟨54, _⟩ => ⟨S256x8192, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]

class Facts₀ : Prop where
  slices_S2x16384_S1x16384_0_0 : S2x16384.Slices ![0, 0] S1x16384
  shapeCasts_S1x16384_S16384 : S1x16384.ShapeCasts S16384
  slices_S2x16384_S1x16384_1_0 : S2x16384.Slices ![1, 0] S1x16384
  bcast_S16384_S16384x1x1_0 : S16384.BroadcastsInDim S16384x1x1 (![0] : Fin 1 → Fin S16384x1x1.rank)
  bcast_S_S16384x1x1 : S_.BroadcastsInDim S16384x1x1 (![] : Fin 0 → Fin S16384x1x1.rank)
  bcast_S16_S1x1x16_2 : S16.BroadcastsInDim S1x1x16 (![2] : Fin 1 → Fin S1x1x16.rank)
  bcast_S16384x1x1_S16384x1x16_0_1_2 : S16384x1x1.BroadcastsInDim S16384x1x16 (![0, 1, 2] : Fin 3 → Fin S16384x1x16.rank)
  bcast_S1x1x16_S16384x1x16_0_1_2 : S1x1x16.BroadcastsInDim S16384x1x16 (![0, 1, 2] : Fin 3 → Fin S16384x1x16.rank)
  bcast_S16384x1x16_S16384x16x16_0_1_2 : S16384x1x16.BroadcastsInDim S16384x16x16 (![0, 1, 2] : Fin 3 → Fin S16384x16x16.rank)
  shapeCasts_S16384x16x16_S4194304 : S16384x16x16.ShapeCasts S4194304
  bcast_S16_S1x16x1_1 : S16.BroadcastsInDim S1x16x1 (![1] : Fin 1 → Fin S1x16x1.rank)
  bcast_S16384x1x1_S16384x16x1_0_1_2 : S16384x1x1.BroadcastsInDim S16384x16x1 (![0, 1, 2] : Fin 3 → Fin S16384x16x1.rank)
  bcast_S1x16x1_S16384x16x1_0_1_2 : S1x16x1.BroadcastsInDim S16384x16x1 (![0, 1, 2] : Fin 3 → Fin S16384x16x1.rank)
  bcast_S16384x16x1_S16384x16x16_0_1_2 : S16384x16x1.BroadcastsInDim S16384x16x16 (![0, 1, 2] : Fin 3 → Fin S16384x16x16.rank)
  bcast_S_S8192x8192 : S_.BroadcastsInDim S8192x8192 (![] : Fin 0 → Fin S8192x8192.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  transposes_S8192x8192_S8192x8192_1_0 : S8192x8192.Transposes [1, 0] S8192x8192
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  scatter_S8192x8192_S4194304x2_S4194304_n_01_01_1_wf : ScatterDims.WF S8192x8192 S4194304x2 S4194304 [] [0, 1] [0, 1] 1
  dot_S256x8192_S8192x8192_S256x8192_1_0_0_1_n_n_wf : DotDims.WF S256x8192 S8192x8192 S256x8192 [1] [0] [0] [1] [] []

variable [Facts₀]

def scatter_S8192x8192_S4194304x2_S4194304_n_01_01_1 : ScatterDims S8192x8192 S4194304x2 S4194304 where
  updateWindowDims := []
  insertedWindowDims := [0, 1]
  scatterDimsToOperandDims := [0, 1]
  indexVectorDim := 1
  wf := scatter_S8192x8192_S4194304x2_S4194304_n_01_01_1_wf
def dot_S256x8192_S8192x8192_S256x8192_1_0_0_1_n_n : DotDims S256x8192 S8192x8192 S256x8192 where
  lhsContracting := [1]
  rhsContracting := [0]
  lhsNonContracting := [0]
  rhsNonContracting := [1]
  lhsBatch := []
  rhsBatch := []
  wf := dot_S256x8192_S8192x8192_S256x8192_1_0_0_1_n_n_wf

class Facts : Prop extends Facts₀ where

variable [Facts]
-- ==== Proof.Pieces.lean ====
/-
  What one run of the body leaves behind, as values.

  The body keeps a 256 × 2048 accumulator between grid points. There are three kinds of point along the contracted
  axis. At its FIRST block the body stores the zero block into the accumulator, reads it back, and stores the
  accumulation step over it. At a MIDDLE block it stores the accumulation step over what the point before left. At
  the LAST block it does the same and then stores, into the output block, the accumulator plus the bias row.

  Each store writes its whole buffer, so what a buffer holds afterwards is the payload of the last store into it, and a
  load of a buffer reads back exactly what the last store put there. Read this way the three cases leave:
  first  — accumulator: step (zero);
  middle — accumulator: step (previous accumulator);
  last   — accumulator: step (previous accumulator), output: bias (step (previous accumulator)).
  These hold for any reading of the floats.
-/
import proofs.«130683_j41197326303441_1_alg».proof.Proof.Gen.KernelIdeal.Frame
import Idealize.ShloMosaic.Lib.Pipeline.Value
import Idealize.ShloMosaic.Lib.Tactic

noncomputable section

namespace Cert.SparseLinear

open Cert.KernelIdeal Cert.KernelIdeal.Gen Idealize.ShloMosaic Idealize.ShloMosaic.TcCoe Idealize.SL.Sem
open Idealize.ShloMosaic.Tactic

variable {F : FTy → Type} [FloatOps F]

/-- A store or load at offsets `[0, 0]` of the full extent addresses the whole buffer. -/
theorem offsets_zero : (![0, 0] : Fin 2 → Nat) = fun _ => 0 := funext fun a => by fin_cases a <;> rfl

/-- FIRST block: the accumulator ends at the step over the zero block. -/
theorem acc_first (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : cond0_0 i) (hc1 : ¬cond0_1 i)
    (x0 : Vec F S256x2048 .bf16) (x1 : Vec F S2048x2048 .bf16) (x2 : Vec F S1x2048 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x2048) offsets_zero]
  simp only [View.readAt_eq_ld, harg2.read_unread, harg3.read_unread, View.ld_unit_zero (S := S256x2048) offsets_zero,
    View.ld_unit_zero (S := S2048x2048) offsets_zero, View.readCov_unit_zero (S := S256x2048) _ offsets_zero]

/-- MIDDLE block: the accumulator ends at the step over what it held. -/
theorem acc_middle (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : ¬cond0_0 i) (hc1 : ¬cond0_1 i)
    (x0 : Vec F S256x2048 .bf16) (x1 : Vec F S2048x2048 .bf16) (x2 : Vec F S1x2048 .f32) (xs0 : Vec F S256x2048 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S256x2048) offsets_zero]
  simp only [View.readAt_eq_ld, harg2.read_unread, harg3.read_unread, harg6.read_unread,
    View.ld_unit_zero (S := S256x2048) offsets_zero, View.ld_unit_zero (S := S2048x2048) offsets_zero]

/-- LAST block: the accumulator ends at the step over what it held … -/
theorem acc_last (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : ¬cond0_0 i) (hc1 : cond0_1 i)
    (x0 : Vec F S256x2048 .bf16) (x1 : Vec F S2048x2048 .bf16) (x2 : Vec F S1x2048 .f32) (xs0 : Vec F S256x2048 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S256x2048) offsets_zero]
  simp only [View.readAt_eq_ld, harg2.read_unread, harg3.read_unread, harg6.read_unread,
    View.ld_unit_zero (S := S256x2048) offsets_zero, View.ld_unit_zero (S := S2048x2048) offsets_zero]

/-- … and the output block at that accumulator plus the bias row. -/
theorem out_last (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : ¬cond0_0 i) (hc1 : cond0_1 i)
    (x0 : Vec F S256x2048 .bf16) (x1 : Vec F S2048x2048 .bf16) (x2 : Vec F S1x2048 .f32) (xs0 : Vec F S256x2048 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S256x2048) offsets_zero]
  simp only [View.readAt_eq_ld, harg2.read_unread, harg3.read_unread, harg4.read_unread, harg6.read_unread,
    View.ld_unit_zero (S := S256x2048) offsets_zero, View.ld_unit_zero (S := S2048x2048) offsets_zero,
    View.ld_unit_zero (S := S1x2048) offsets_zero, View.readCov_unit_zero (S := S256x2048) _ offsets_zero]

end Cert.SparseLinear

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibBlockSum.lean ====
/-
  General facts for setting a sum that is computed block by block beside the same sum computed in one pass.

  * `sum_range_blocks`: in any additive commutative monoid, the sum of `f` over the first `d · n` naturals is the sum,
    over the `n` consecutive blocks of length `d`, of each block's own sum. Only associativity and commutativity of
    the addition are used, so it holds on the extended reals, infinities included.
  * `at1`, `at2`: an array of rank one or two read at NATURAL coordinates — its entry when the coordinates are inside
    the extents, zero outside. With them a sum over positions of an array is a sum over naturals, and block offsets
    are plain arithmetic. `at1_eq` / `at2_eq`: at the coordinates of an index, they are the entry at that index.
-/
import Mathlib.Algebra.BigOperators.Intervals
import Mathlib.Algebra.BigOperators.Fin
import Idealize.ShloMosaic.Lib.ValueIdx

namespace Cert.LibBlockSum

open Finset Idealize.ShloMosaic Idealize.ShloMosaic.ValueIdx

/-- A sum over the first `d · n` naturals, regrouped into `n` consecutive blocks of `d` terms: position `d · s + k`
    is term `k` of block `s`. By induction on the number of blocks: the last block is split off the end of the range. -/
theorem sum_range_blocks {M : Type*} [AddCommMonoid M] (f : ℕ → M) (d : ℕ) :
    ∀ n : ℕ, ∑ i ∈ range (d * n), f i = ∑ s ∈ range n, ∑ k ∈ range d, f (d * s + k)
  | 0 => by simp
  | n + 1 => by
    rw [Nat.mul_succ, sum_range_add, sum_range_blocks f d n, sum_range_succ]

/-- A rank-1 array read at a natural coordinate: the entry there, or zero past the extent. -/
def at1 {M : Type*} [Zero M] {n : ℕ} (B : (⟨1, ![n]⟩ : Shape).Idx → M) (a : ℕ) : M :=
  if h : a < n then B (ix1 ⟨a, h⟩) else 0

/-- At the coordinate of an index, `at1` is the entry at that index. -/
theorem at1_eq {M : Type*} [Zero M] {n : ℕ} (B : (⟨1, ![n]⟩ : Shape).Idx → M) (i : (⟨1, ![n]⟩ : Shape).Idx) (a : ℕ)
    (ha : (i 0).val = a) : at1 B a = B i := by
  subst ha
  unfold at1
  rw [dif_pos (show (i 0).val < n from (i 0).isLt)]
  exact congrArg B (eq_ix1 i).symm

/-- A rank-2 array read at natural coordinates: the entry there, or zero outside the extents. -/
def at2 {M : Type*} [Zero M] {n0 n1 : ℕ} (A : (⟨2, ![n0, n1]⟩ : Shape).Idx → M) (a b : ℕ) : M :=
  if h : a < n0 ∧ b < n1 then A (ix2 ⟨a, h.1⟩ ⟨b, h.2⟩) else 0

/-- At the coordinates of an index, `at2` is the entry at that index. -/
theorem at2_eq {M : Type*} [Zero M] {n0 n1 : ℕ} (A : (⟨2, ![n0, n1]⟩ : Shape).Idx → M)
    (i : (⟨2, ![n0, n1]⟩ : Shape).Idx) (a b : ℕ) (ha : (i 0).val = a) (hb : (i 1).val = b) : at2 A a b = A i := by
  subst ha; subst hb
  unfold at2
  rw [dif_pos ⟨idx2_lt0 i, idx2_lt1 i⟩]
  exact congrArg A (eq_ix2 i).symm

end Cert.LibBlockSum
-- ==== Proof.Spec.lean ====
/-
  The function both programs compute, and the one regrouping of a sum that joins them.

  With `x` a 256 × 8192 matrix, `W` an 8192 × 8192 matrix and `b` a vector of 8192 entries, the result is the
  256 × 8192 matrix `x · Wᵀ + b`: entry `(p, q)` is `∑ k, x[p, k] · W[q, k] + b[q]` (`linear`).

  One side forms each inner product in one pass over `k`. The other cuts the 8192 positions into four consecutive
  blocks of 2048, forms each block's own sum (`blockSum`) and adds the four block sums one after the other. The two
  agree because a sum over `2048 · 4` positions is the sum of its four blocks' sums (`blocks_eq_sum`): only
  associativity and commutativity of addition are used, so this holds on the extended reals with no finiteness
  assumption on the entries.

  The positions are NATURAL numbers here (an array read outside its extents is zero, `at2`), so that a block's
  offset `2048 · s + j` is plain arithmetic.
-/
import Mathlib.Algebra.BigOperators.Intervals
import Mathlib.Algebra.BigOperators.Fin
import Idealize.ShloMosaic.PureOps.Ideal
import Idealize.ShloMosaic.Lib.ValueIdx
import proofs.«130683_j41197326303441_1_alg».proof.Proof.LibBlockSum

noncomputable section

namespace Cert.SparseLinear

open Finset Idealize.ShloMosaic Idealize.ShloMosaic.ValueIdx Cert.LibBlockSum

/-- `x · Wᵀ + b`: entry `(p, q)` is the inner product of row `p` of `x` with row `q` of `W`, plus `b[q]`. -/
def linear (X : (⟨2, ![256, 8192]⟩ : Shape).Idx → EReal) (W : (⟨2, ![8192, 8192]⟩ : Shape).Idx → EReal)
    (b : (⟨1, ![8192]⟩ : Shape).Idx → EReal) : (⟨2, ![256, 8192]⟩ : Shape).Idx → EReal :=
  fun i => (∑ k : Fin 8192, X (ix2 (i 0) k) * W (ix2 (i 1) k)) + b (ix1 (i 1))

/-- The product `x[p, a] · W[q, a]` at natural coordinates (zero when a coordinate is outside the extents). -/
def term (X : (⟨2, ![256, 8192]⟩ : Shape).Idx → EReal) (W : (⟨2, ![8192, 8192]⟩ : Shape).Idx → EReal)
    (p q a : ℕ) : EReal :=
  at2 X p a * at2 W q a

/-- Block `s` of the inner product of row `p` of `x` with row `q` of `W`: the 2048 terms at positions
    `2048 · s, …, 2048 · s + 2047`. -/
def blockSum (X : (⟨2, ![256, 8192]⟩ : Shape).Idx → EReal) (W : (⟨2, ![8192, 8192]⟩ : Shape).Idx → EReal)
    (p q s : ℕ) : EReal :=
  ∑ j ∈ range 2048, term X W p q (2048 * s + j)

/-- The four block sums add up to the whole inner product. -/
theorem blocks_eq_sum (X : (⟨2, ![256, 8192]⟩ : Shape).Idx → EReal) (W : (⟨2, ![8192, 8192]⟩ : Shape).Idx → EReal)
    (p : Fin 256) (q : Fin 8192) :
    ∑ s ∈ range 4, blockSum X W p.val q.val s = ∑ k : Fin 8192, X (ix2 p k) * W (ix2 q k) := by
  unfold blockSum
  rw [← sum_range_blocks (fun a => term X W p.val q.val a) 2048 4, show (2048 * 4 : ℕ) = 8192 from rfl,
    ← Fin.sum_univ_eq_sum_range (fun a => term X W p.val q.val a) 8192]
  refine sum_congr rfl fun k _ => ?_
  unfold term
  rw [at2_eq X (ix2 p k) p.val k.val rfl rfl, at2_eq W (ix2 q k) q.val k.val rfl rfl]

/-- What grid point `n` adds to the accumulator's entry `(p, q)`: point `n` works on column tile `n / 4` of the result and
    on block `n % 4` of the contracted axis, so it adds block `n % 4` of the inner product of row `p` of `x` with row
    `2048 · (n / 4) + q` of `W`. -/
def addend (X : (⟨2, ![256, 8192]⟩ : Shape).Idx → EReal) (W : (⟨2, ![8192, 8192]⟩ : Shape).Idx → EReal)
    (n p q : ℕ) : EReal :=
  blockSum X W p (2048 * (n / 4) + q) (n % 4)

/-- A 1 × 8192 row as a vector of 8192 entries. -/
def rowVec (B : (⟨2, ![1, 8192]⟩ : Shape).Idx → EReal) : (⟨1, ![8192]⟩ : Shape).Idx → EReal :=
  fun i => B (ix2 0 (i 0))

/-- ONE ENTRY OF ONE COLUMN TILE. Starting from zero and adding, for the four points `4n, …, 4n + 3` of column tile
    `n`, what each adds at `(p, q)`, then the bias row's entry, gives entry `(p, 2048 · n + q)` of `x · Wᵀ + b`. -/
theorem tile_entry (X : (⟨2, ![256, 8192]⟩ : Shape).Idx → EReal) (W : (⟨2, ![8192, 8192]⟩ : Shape).Idx → EReal)
    (B : (⟨2, ![1, 8192]⟩ : Shape).Idx → EReal) (n : ℕ) (hn : n < 4) (p : Fin 256) (q : Fin 2048) :
    (0 + ∑ s ∈ range 4, addend X W (4 * n + s) p.val q.val) + at2 B 0 (2048 * n + q.val)
      = at2 (linear X W (rowVec B)) p.val (2048 * n + q.val) := by
  have hQ : 2048 * n + q.val < 8192 := by have := q.isLt; omega
  rw [at2_eq (linear X W (rowVec B)) (ix2 p ⟨2048 * n + q.val, hQ⟩) p.val (2048 * n + q.val) rfl rfl,
    at2_eq B (ix2 0 ⟨2048 * n + q.val, hQ⟩) 0 (2048 * n + q.val) rfl rfl, zero_add]
  have e : ∑ s ∈ range 4, addend X W (4 * n + s) p.val q.val
      = ∑ s ∈ range 4, blockSum X W p.val (2048 * n + q.val) s :=
    sum_congr rfl fun s hs => by
      have hs4 : s < 4 := mem_range.mp hs
      unfold addend
      rw [show (4 * n + s) / 4 = n by omega, show (4 * n + s) % 4 = s by omega]
  rw [e]
  exact congrArg (fun z => z + B (ix2 0 ⟨2048 * n + q.val, hQ⟩)) (blocks_eq_sum X W p ⟨2048 * n + q.val, hQ⟩)

end Cert.SparseLinear

end
-- ==== Proof.Payload.lean ====
/-
  The body's arithmetic, read at one entry, over the extended reals.

  The body stores three values. The first is the zero block, with which the accumulator starts at the first block of
  the contracted axis. The second is the accumulator plus the product of the current 256 × 2048 block of `x` with the
  current 2048 × 2048 block of `W`, contracting the LAST axis of both: at `(p, q)` it adds `∑ j, x[p, j] · W[q, j]`,
  the inner product of two rows (a change of float format being the identity on extended reals, the narrow operands
  are the numbers themselves). The third, stored after the last block only, is the accumulator plus the bias row
  broadcast down the 256 rows: at `(p, q)` it adds `b[0, q]`.
-/
import proofs.«130683_j41197326303441_1_alg».proof.Proof.Gen.KernelIdeal.Skeleton
import proofs.«130683_j41197326303441_1_alg».proof.Proof.LibDotRows
import proofs.«130683_j41197326303441_1_alg».proof.Proof.Spec
import Idealize.ShloMosaic.Lib.Pipeline.Value
import Idealize.ShloMosaic.Lib.ValueIdx
import Idealize.ShloMosaic.PureOps.Ideal.Laws

noncomputable section

namespace Cert.SparseLinear

open Cert.KernelIdeal Cert.KernelIdeal.Gen Idealize.ShloMosaic Idealize.ShloMosaic.ValueIdx Cert.LibBlockSum

/-- The block the accumulator is reset to is zero at every entry. -/
theorem reset_apply (y : S256x2048.Idx) : k0_pay1 (F := Ideal) y = 0 := by
  unfold k0_pay1
  rw [shapeCast_self]
  exact Ideal.ofBits_zero_f32

/-- One accumulation step at entry `(p, q)`: what the accumulator held there, plus the inner product of row `p` of the
    block of `x` with row `q` of the block of `W`. -/
theorem step_apply (xb : Vec Ideal S256x2048 .bf16) (wb : Vec Ideal S2048x2048 .bf16) (acc : Vec Ideal S256x2048 .f32)
    (p : Fin 256) (q : Fin 2048) :
    k0_pay2 xb wb acc (ix2 p q) = acc (ix2 p q) + ∑ j : Fin 2048, xb (ix2 p j) * wb (ix2 q j) := by
  unfold k0_pay2
  rw [shapeCast_self, shapeCast_self, shapeCast_self]
  exact congrArg (acc (ix2 p q) + ·)
    (Cert.Lib.DotRows.matmul_rows_apply dot_S256x2048_S2048x2048_S256x2048_1_1_0_0_n_n rfl none xb wb p q)

/-- The accumulation step when the two operand blocks are blocks of arrays `X` and `W`: if at grid position `n` the left
    block holds columns `2048 · (n % 4) + j` of `X` and the right block holds rows `2048 · (n / 4) + q`, columns
    `2048 · (n % 4) + j` of `W`, the step adds at `(p, q)` exactly what point `n` owes that entry (`addend`). -/
theorem step_blocks (xb : Vec Ideal S256x2048 .bf16) (wb : Vec Ideal S2048x2048 .bf16) (acc : Vec Ideal S256x2048 .f32)
    (X : (⟨2, ![256, 8192]⟩ : Shape).Idx → EReal) (W : (⟨2, ![8192, 8192]⟩ : Shape).Idx → EReal) (n : ℕ)
    (hx : ∀ (p : Fin 256) (j : Fin 2048), xb (ix2 p j) = at2 X p.val (2048 * (n % 4) + j.val))
    (hw : ∀ (q j : Fin 2048), wb (ix2 q j) = at2 W (2048 * (n / 4) + q.val) (2048 * (n % 4) + j.val))
    (p : Fin 256) (q : Fin 2048) :
    k0_pay2 xb wb acc (ix2 p q) = acc (ix2 p q) + addend X W n p.val q.val := by
  rw [step_apply]
  refine congrArg (acc (ix2 p q) + ·) ?_
  unfold addend blockSum term
  rw [Finset.sum_range]
  exact Finset.sum_congr rfl fun j _ => by rw [hx, hw]

/-- The closing step at entry `(p, q)`: the accumulator there plus the bias row's entry `q`. -/
theorem bias_apply (acc : Vec Ideal S256x2048 .f32) (bb : Vec Ideal S1x2048 .f32) (p : Fin 256) (q : Fin 2048) :
    k0_pay3 acc bb (ix2 p q) = acc (ix2 p q) + bb (ix2 0 q) := by
  unfold k0_pay3
  rw [shapeCast_self]
  refine congrArg (acc (ix2 p q) + ·) ?_
  refine broadcastTo_apply bb broadcasts_S1x2048_S256x2048 (ix2 p q) (ix2 0 q) fun a => ?_
  match a with
  | ⟨0, _⟩ => rfl
  | ⟨1, _⟩ => rfl

end Cert.SparseLinear

end
-- ==== Proof.Arrays.lean ====
/-
  The three arrays the matrix product reads, and their blocks.

  When the product starts it finds `x` (256 × 8192), the dense `W` (8192 × 8192) and the bias as a 1 × 8192 row
  (`xArr`, `wArr`, `bArr`). The grid has 16 points; point `t` works on column tile `t / 4` of the result and on block
  `t % 4` of the contracted axis. At that point the body is handed
    * the 256 × 2048 block of `x`:  columns `2048 · (t % 4) + j`;
    * the 2048 × 2048 block of `W`:  rows `2048 · (t / 4) + q`, columns `2048 · (t % 4) + j`;
    * the 1 × 2048 block of the bias row: columns `2048 · (t / 4) + q`.
  Which block a point gets is decided once over the 16 points; a block's entry is then the array's entry at
  block index × block size + the coordinate inside the block. Coordinates are natural numbers (`at2`), so the offsets
  are plain arithmetic.

  Each block is first read off an ARBITRARY array of the right extents (the statement is about positions only, not
  about what the array holds), and then taken at the array the product finds.
-/
import proofs.«130683_j41197326303441_1_alg».proof.Proof.Gen.KernelIdeal.Frame
import proofs.«130683_j41197326303441_1_alg».proof.Proof.Gen.KernelIdeal.Points
import proofs.«130683_j41197326303441_1_alg».proof.Proof.LibBlockSum
import Idealize.ShloMosaic.Lib.Pipeline.Value
import Idealize.ShloMosaic.Lib.ValueIdx

noncomputable section

namespace Cert.SparseLinear

open Cert.KernelIdeal Cert.KernelIdeal.Gen Idealize.ShloMosaic Idealize.ShloMosaic.TcCoe Idealize.SL.Sem
open Idealize.ShloMosaic.ValueIdx Cert.LibBlockSum

/-- Point `t` reads block `(0, t % 4)` of `x`, … -/
theorem index_x : ∀ t : Fin cfg0.N, win0_0.index t (0 : Fin 2) = 0 ∧ win0_0.index t (1 : Fin 2) = t.val % 4 :=
  (by decide +kernel : ∀ t : Fin grid0.N, _)
/-- … block `(t / 4, t % 4)` of `W`, … -/
theorem index_w : ∀ t : Fin cfg0.N, win0_1.index t (0 : Fin 2) = t.val / 4 ∧ win0_1.index t (1 : Fin 2) = t.val % 4 :=
  (by decide +kernel : ∀ t : Fin grid0.N, _)
/-- … block `(0, t / 4)` of the bias row, … -/
theorem index_b : ∀ t : Fin cfg0.N, win0_2.index t (0 : Fin 2) = 0 ∧ win0_2.index t (1 : Fin 2) = t.val / 4 :=
  (by decide +kernel : ∀ t : Fin grid0.N, _)
/-- … and works on block `(0, t / 4)` of the result. -/
theorem index_o : ∀ t : Fin cfg0.N, win0_3.index t (0 : Fin 2) = 0 ∧ win0_3.index t (1 : Fin 2) = t.val / 4 :=
  (by decide +kernel : ∀ t : Fin grid0.N, _)

/-- Block `t` of a 256 × 8192 array `A` through the first operand's window, entry `(p, j)`: `A[p, 2048 · (t % 4) + j]`. -/
theorem xblock_read (A : (⟨2, ![256, 8192]⟩ : Shape).Idx → EReal) (t : Fin cfg0.N) (p : Fin 256) (j : Fin 2048) :
    ((cfg0.win 0).blk t).view.read (Elt Ideal) A (ix2 p j) = at2 A p.val (2048 * (t.val % 4) + j.val) := by
  rw [View.read_apply]
  show A (((cfg0.win 0).blk t).view.emb (ix2 p j)) = _
  refine (at2_eq _ _ _ _ ?_ ?_).symm
  · show win0_0.index t 0 * 256 + 1 * p.val = p.val
    rw [(index_x t).1]; omega
  · show win0_0.index t 1 * 2048 + 1 * j.val = 2048 * (t.val % 4) + j.val
    rw [(index_x t).2]; omega

/-- Block `t` of an 8192 × 8192 array `A` through the second operand's window, entry `(q, j)`:
    `A[2048 · (t / 4) + q, 2048 · (t % 4) + j]`. -/
theorem wblock_read (A : (⟨2, ![8192, 8192]⟩ : Shape).Idx → EReal) (t : Fin cfg0.N) (q j : Fin 2048) :
    ((cfg0.win 1).blk t).view.read (Elt Ideal) A (ix2 q j)
      = at2 A (2048 * (t.val / 4) + q.val) (2048 * (t.val % 4) + j.val) := by
  rw [View.read_apply]
  show A (((cfg0.win 1).blk t).view.emb (ix2 q j)) = _
  refine (at2_eq _ _ _ _ ?_ ?_).symm
  · show win0_1.index t 0 * 2048 + 1 * q.val = 2048 * (t.val / 4) + q.val
    rw [(index_w t).1]; omega
  · show win0_1.index t 1 * 2048 + 1 * j.val = 2048 * (t.val % 4) + j.val
    rw [(index_w t).2]; omega

/-- Block `t` of a 1 × 8192 array `A` through the third operand's window, entry `(0, q)`: `A[0, 2048 · (t / 4) + q]`. -/
theorem bblock_read (A : (⟨2, ![1, 8192]⟩ : Shape).Idx → EReal) (t : Fin cfg0.N) (q : Fin 2048) :
    ((cfg0.win 2).blk t).view.read (Elt Ideal) A (ix2 0 q) = at2 A 0 (2048 * (t.val / 4) + q.val) := by
  rw [View.read_apply]
  show A (((cfg0.win 2).blk t).view.emb (ix2 0 q)) = _
  refine (at2_eq _ _ _ _ ?_ ?_).symm
  · show win0_2.index t 0 * 1 + 1 * (0 : Fin 1).val = 0
    rw [(index_b t).1]; rfl
  · show win0_2.index t 1 * 2048 + 1 * q.val = 2048 * (t.val / 4) + q.val
    rw [(index_b t).2]; omega

/-- Block `t` of a 256 × 8192 array `G` through the result's window, entry `(p, q)`: `G[p, 2048 · (t / 4) + q]`. -/
theorem oblock_read (G : (⟨2, ![256, 8192]⟩ : Shape).Idx → EReal) (t : Fin cfg0.N) (p : Fin 256) (q : Fin 2048) :
    ((cfg0.win 3).blk t).view.read (Elt Ideal) G (ix2 p q) = at2 G p.val (2048 * (t.val / 4) + q.val) := by
  rw [View.read_apply]
  show G (((cfg0.win 3).blk t).view.emb (ix2 p q)) = _
  refine (at2_eq _ _ _ _ ?_ ?_).symm
  · show win0_3.index t 0 * 256 + 1 * p.val = p.val
    rw [(index_o t).1]; omega
  · show win0_3.index t 1 * 2048 + 1 * q.val = 2048 * (t.val / 4) + q.val
    rw [(index_o t).2]; omega

/-- So a 256 × 2048 block `ob` whose entry `(p, q)` is `G[p, 2048 · (t / 4) + q]` IS block `t` of `G`: writing it back
    at point `t` writes that block of `G`. -/
theorem oblock_eq (G : (⟨2, ![256, 8192]⟩ : Shape).Idx → EReal) (t : Fin cfg0.N) (ob : Vec Ideal S256x2048 .f32)
    (h : ∀ (p : Fin 256) (q : Fin 2048), ob (ix2 p q) = at2 G p.val (2048 * (t.val / 4) + q.val)) :
    (cfg0.win 3).cut (grid0.coords t) ob = ((cfg0.win 3).blk t).view.read (Elt Ideal) G := by
  funext j
  obtain ⟨p, q, rfl⟩ : ∃ (p : Fin 256) (q : Fin 2048), j = ix2 p q := ⟨j 0, j 1, eq_ix2 j⟩
  rw [oblock_read G t p q]
  exact h p q

/-- An entry of the result is in point `t`'s block iff each coordinate is in the block's range on its axis. -/
theorem mem_oblock (t : Fin cfg0.N) (i : S256x8192.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v42).slice (win0_3.rect t)).set ↔ _
  rw [View.set_slice_whole, Rect.mem_set_unit]
  exact Iff.rfl

/-- Every entry `(r, s)` of the result lies in the block written back at the last point of its column tile,
    point `4 · (s / 2048) + 3`. -/
theorem covered (i : S256x8192.Idx) :
    ∃ t : Fin cfg0.N, (cfg0.win 3).flush t = true ∧ i ∈ ((cfg0.win 3).blk t).view.set := by
  have h0 : (i 0).val < 256 := (i 0).isLt
  have h1 : (i 1).val < 8192 := (i 1).isLt
  have hN : cfg0.N = 16 := N_0
  have ht : 4 * ((i 1).val / 2048) + 3 < cfg0.N := by omega
  have e0 : win0_3.index ⟨4 * ((i 1).val / 2048) + 3, ht⟩ (0 : Fin 2) = 0 := (index_o ⟨_, ht⟩).1
  have e1 : win0_3.index ⟨4 * ((i 1).val / 2048) + 3, ht⟩ (1 : Fin 2) = (4 * ((i 1).val / 2048) + 3) / 4 :=
    (index_o ⟨_, ht⟩).2
  refine ⟨⟨4 * ((i 1).val / 2048) + 3, ht⟩, (flush0_3 _).mpr (show (4 * ((i 1).val / 2048) + 3) % 4 = 3 by omega), ?_⟩
  rw [mem_oblock]
  intro a
  match a with
  | ⟨0, _⟩ =>
    show win0_3.index ⟨4 * ((i 1).val / 2048) + 3, ht⟩ 0 * 256 ≤ (i 0).val
      ∧ (i 0).val < win0_3.index ⟨4 * ((i 1).val / 2048) + 3, ht⟩ 0 * 256 + 256
    rw [e0]; omega
  | ⟨1, _⟩ =>
    show win0_3.index ⟨4 * ((i 1).val / 2048) + 3, ht⟩ 1 * 2048 ≤ (i 1).val
      ∧ (i 1).val < win0_3.index ⟨4 * ((i 1).val / 2048) + 3, ht⟩ 1 * 2048 + 2048
    rw [e1]; omega

variable (m : (ℓ : Loc nD τ sig) → Buf (Elt Ideal) ℓ)

/-- `x` as the matrix product finds it. -/
def xArr (c : Dev nD) : (⟨2, ![256, 8192]⟩ : Shape).Idx → EReal := V m c (Pipeline.arrRef spec0 0)
/-- The dense `W` as the matrix product finds it. -/
def wArr (c : Dev nD) : (⟨2, ![8192, 8192]⟩ : Shape).Idx → EReal := V m c (Pipeline.arrRef spec0 1)
/-- The bias row as the matrix product finds it. -/
def bArr (c : Dev nD) : (⟨2, ![1, 8192]⟩ : Shape).Idx → EReal := V m c (Pipeline.arrRef spec0 2)

/-- The block of `x` at point `t`, entry `(p, j)`: `x[p, 2048 · (t % 4) + j]`. -/
theorem xblock_apply (c : Dev nD) (t : Fin cfg0.N) (p : Fin 256) (j : Fin 2048) :
    (iblk m c 0 t : Vec Ideal S256x2048 .bf16) (ix2 p j) = at2 (xArr m c) p.val (2048 * (t.val % 4) + j.val) :=
  xblock_read (xArr m c) t p j

/-- The block of `W` at point `t`, entry `(q, j)`: `W[2048 · (t / 4) + q, 2048 · (t % 4) + j]`. -/
theorem wblock_apply (c : Dev nD) (t : Fin cfg0.N) (q j : Fin 2048) :
    (iblk m c 1 t : Vec Ideal S2048x2048 .bf16) (ix2 q j)
      = at2 (wArr m c) (2048 * (t.val / 4) + q.val) (2048 * (t.val % 4) + j.val) :=
  wblock_read (wArr m c) t q j

/-- The block of the bias row at point `t`, entry `(0, q)`: `b[0, 2048 · (t / 4) + q]`. -/
theorem bblock_apply (c : Dev nD) (t : Fin cfg0.N) (q : Fin 2048) :
    (iblk m c 2 t : Vec Ideal S1x2048 .f32) (ix2 0 q) = at2 (bArr m c) 0 (2048 * (t.val / 4) + q.val) :=
  bblock_read (bArr m c) t q

end Cert.SparseLinear

end
-- ==== Proof.Accum.lean ====
/-
  The accumulator over the grid, and the result array.

  The 16 grid points run in order; point `t` belongs to column tile `t / 4` and handles block `t % 4` of the contracted
  axis. The accumulator is reset at the first point of each tile (`t % 4 = 0`) and every point then adds to entry
  `(p, q)` its own block of the inner product (`addend`). So after point `t` the accumulator's entry `(p, q)` is
  `0 +` the sum of the addends of the tile's points up to `t` (`carried_after`: the run's own fold from the last
  reset, unrolled). At the last point of a tile (`t % 4 = 3`) the output block is the accumulator plus the bias row,
  which by the regrouping of the four block sums is the tile's part of `x · Wᵀ + b` (`out_entry`). Those four points
  are the ones whose blocks are written back, their blocks tile the result, and so the result array ends holding
  `x · Wᵀ + b` of the arrays the product found (`final`, `run`).
-/
import proofs.«130683_j41197326303441_1_alg».proof.Proof.Gen.KernelIdeal.Value
import proofs.«130683_j41197326303441_1_alg».proof.Proof.Pieces
import proofs.«130683_j41197326303441_1_alg».proof.Proof.Payload
import proofs.«130683_j41197326303441_1_alg».proof.Proof.Arrays
import proofs.«130683_j41197326303441_1_alg».proof.Proof.Spec

noncomputable section

namespace Cert.SparseLinear

open Cert.KernelIdeal Cert.KernelIdeal.Gen Cert.KernelIdeal.Value Idealize.ShloMosaic Idealize.ShloMosaic.TcCoe
open Idealize.SL.Sem Idealize.ShloMosaic.ValueIdx Cert.LibBlockSum
open Idealize.ShloMosaic.Pipeline (Dat)

variable (m : (ℓ : Loc nD τ sig) → Buf (Elt Ideal) ℓ) (ρ : Dev nD → PrngReg)

/-- `x · Wᵀ + b` of the arrays the matrix product finds. -/
def result (c : Dev nD) : (⟨2, ![256, 8192]⟩ : Shape).Idx → EReal :=
  linear (xArr m c) (wArr m c) (rowVec (bArr m c))

/-! ## What a point leaves in the accumulator -/

/-- At the first point of a column tile the accumulator ends at the step over the zero block, whatever it held. -/
theorem carried_first (c : Dev nD) (n : ℕ) (hb : n < cfg0.N) (acc : Vec Ideal S256x2048 .f32) (h0 : n % 4 = 0) :
    scAt0_0 m c n hb acc = k0_pay2 (iblk m c 0 ⟨n, hb⟩) (iblk m c 1 ⟨n, hb⟩) (k0_pay1 (F := Ideal)) := by
  have h1 : ¬n % 4 = 3 := by omega
  unfold scAt0_0
  rw [dif_pos h0, dif_neg h1]
  exact acc_first c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _ (iblk m c 0 ⟨n, hb⟩) (iblk m c 1 ⟨n, hb⟩) (iblk m c 2 ⟨n, hb⟩)

/-- At every other point it ends at the step over what the point before left. -/
theorem carried_next (c : Dev nD) (n : ℕ) (hb : n < cfg0.N) (acc : Vec Ideal S256x2048 .f32) (h0 : ¬n % 4 = 0) :
    scAt0_0 m c n hb acc = k0_pay2 (iblk m c 0 ⟨n, hb⟩) (iblk m c 1 ⟨n, hb⟩) acc := by
  unfold scAt0_0
  rw [dif_neg h0]
  by_cases h1 : n % 4 = 3
  · rw [dif_pos h1]
    exact acc_last c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _ (iblk m c 0 ⟨n, hb⟩) (iblk m c 1 ⟨n, hb⟩) (iblk m c 2 ⟨n, hb⟩) acc
  · rw [dif_neg h1]
    exact acc_middle c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _ (iblk m c 0 ⟨n, hb⟩) (iblk m c 1 ⟨n, hb⟩) (iblk m c 2 ⟨n, hb⟩) acc

/-- Entry by entry: a tile's first point leaves `0 +` its addend, … -/
theorem carried_reset (c : Dev nD) (n : ℕ) (hb : n < cfg0.N) (h0 : n % 4 = 0) (acc : Vec Ideal S256x2048 .f32)
    (y : S256x2048.Idx) :
    scAt0_0 m c n hb acc y = 0 + addend (xArr m c) (wArr m c) n (y 0).val (y 1).val := by
  obtain ⟨p, q, rfl⟩ : ∃ (p : Fin 256) (q : Fin 2048), y = ix2 p q := ⟨y 0, y 1, eq_ix2 y⟩
  rw [carried_first m c n hb acc h0]
  refine (step_blocks (iblk m c 0 ⟨n, hb⟩) (iblk m c 1 ⟨n, hb⟩) (k0_pay1 (F := Ideal)) (xArr m c) (wArr m c) n
    (xblock_apply m c ⟨n, hb⟩) (wblock_apply m c ⟨n, hb⟩) p q).trans ?_
  rw [reset_apply]

/-- … and every other point adds its addend to what the point before left. -/
theorem carried_step (c : Dev nD) (n : ℕ) (hb : n < cfg0.N) (h0 : ¬n % 4 = 0) (acc : Vec Ideal S256x2048 .f32)
    (y : S256x2048.Idx) :
    scAt0_0 m c n hb acc y = acc y + addend (xArr m c) (wArr m c) n (y 0).val (y 1).val := by
  obtain ⟨p, q, rfl⟩ : ∃ (p : Fin 256) (q : Fin 2048), y = ix2 p q := ⟨y 0, y 1, eq_ix2 y⟩
  rw [carried_next m c n hb acc h0]
  exact step_blocks (iblk m c 0 ⟨n, hb⟩) (iblk m c 1 ⟨n, hb⟩) acc (xArr m c) (wArr m c) n
    (xblock_apply m c ⟨n, hb⟩) (wblock_apply m c ⟨n, hb⟩) p q

/-- THE ACCUMULATOR AFTER POINT `t`: `0 +` the addends of the tile's points `4 · (t / 4), …, t`. -/
theorem carried_after (c : Dev nD) (t : Fin cfg0.N) (p : Fin 256) (q : Fin 2048) :
    (outsAt0 m c t.val t.isLt).2 (ix2 p q)
      = 0 + ∑ s ∈ Finset.range (t.val % 4 + 1), addend (xArr m c) (wArr m c) (4 * (t.val / 4) + s) p.val q.val := by
  rw [soutsAt0_0_eq m c t]
  exact Pipeline.accAt_add_apply (ι := S256x2048.Idx) (β := EReal)
    (fun n h => scAt0_0 m c n h (VS0_0.read (Elt Ideal) VS0_0.junk)) (scAt0_0 m c) (fun _ => 0)
    (fun n y => addend (xArr m c) (wArr m c) n (y 0).val (y 1).val) (4 * (t.val / 4)) 3
    (fun h y => carried_reset m c (4 * (t.val / 4)) h (by omega) _ y)
    (fun n h acc y hlt hle => carried_step m c n h (by omega) acc y)
    (t.val % 4) (by omega) _ (ix2 p q)

/-! ## The output block at a tile's last point -/

/-- At a tile's last point the output block is the closing step over the accumulator the same point leaves. -/
theorem out_at_last (c : Dev nD) (t : Fin cfg0.N) (h3 : t.val % 4 = 3) :
    (outsAt0 m c t.val t.isLt).1 = k0_pay3 ((outsAt0 m c t.val t.isLt).2) (iblk m c 2 t) := by
  have h0 : ¬t.val % 4 = 0 := by omega
  rw [outsAt0_C m c t h0 h3]
  dsimp only
  rw [out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2,
    acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2]

/-- Its entry `(p, q)` is entry `(p, 2048 · (t / 4) + q)` of `x · Wᵀ + b`. -/
theorem out_entry (c : Dev nD) (t : Fin cfg0.N) (h3 : t.val % 4 = 3) (p : Fin 256) (q : Fin 2048) :
    (outsAt0 m c t.val t.isLt).1 (ix2 p q) = at2 (result m c) p.val (2048 * (t.val / 4) + q.val) := by
  have hN : cfg0.N = 16 := N_0
  have ht := t.isLt
  rw [out_at_last m c t h3, bias_apply ((outsAt0 m c t.val t.isLt).2) (iblk m c 2 t) p q, carried_after m c t p q,
    bblock_apply m c t q, h3]
  exact tile_entry (xArr m c) (wArr m c) (bArr m c) (t.val / 4) (by omega) p q

/-! ## The result array -/

/-- What a written-back point writes is its block of `x · Wᵀ + b`. -/
theorem flushed_eq (c : Dev nD) (t : Fin cfg0.N) (hf : (cfg0.win 3).flush t = true) :
    (dats m 0 c).flushed 3 t = ((cfg0.win 3).blk t).view.read (Elt Ideal) (result m c) :=
  (flushed3 m c t).trans
    (oblock_eq (result m c) t ((outsAt0 m c t.val t.isLt).1) (out_entry m c t ((flush0_3 t).mp hf)))

/-- The written-back blocks tile the result, so after the run it holds `x · Wᵀ + b`. -/
theorem final (c : Dev nD) : (dats m 0 c).arrAt 3 cfg0.N = result m c :=
  (dats m 0 c).arrAt_eq_of_cover 3 (result m c) (flushed_eq m c) covered

/-- The run of the idealized kernel: it terminates with the result array at `x · Wᵀ + b` of the arrays the matrix
    product found, the arguments unchanged. -/
theorem run : θ_run defs (onTc (τ := τ) (main (F := Ideal))) ⟨m, fun _ => 0, ρ⟩ fun r => ∀ c : Dev nD,
      r.2.mem ((c : Thread nD τ).loc main_v42) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.SparseLinear

end
-- ==== Proof.Host.lean ====
/-
  What the matrix product finds, in terms of the arguments.

  Before the product the program builds three arrays from its arguments. `x` is narrowed to a 16-bit format; on
  extended reals a change of format is the identity, so the product finds `x` itself (`xArr_eq`). The bias vector is
  re-laid as a 1 × 8192 row, so entry `(0, q)` of the row is entry `q` of the vector (`bias_eq`). The dense `W` is
  assembled by a scatter-add of the 4,194,304 values at row and column positions computed from the edge list, then
  narrowed (again the identity): it is operation for operation the same composition of the same operations on the same
  two arguments as the other program's dense `W`, whose stages are named one by one; unfolding those names leaves the
  same expression on both sides (`wArr_eq`).
-/
import proofs.«130683_j41197326303441_1_alg».proof.Proof.Arrays
import proofs.«130683_j41197326303441_1_alg».proof.Proof.Spec
import proofs.«130683_j41197326303441_1_alg».proof.Proof.Gen.ReferenceIdeal.Read
import Idealize.ShloMosaic.Lib.StableHlo.Run
import Idealize.ShloMosaic.Lib.Pipeline.Value

noncomputable section

namespace Cert.SparseLinear

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Narrowing the float format of an array of extended reals changes nothing. -/
theorem truncf_ideal {s : Shape} {φ ψ : FTy} (a : FVec Ideal s φ) (h : ψ.bits < φ.bits) :
    (truncf ψ a h : FVec Ideal s ψ) = a := rfl

/-- The product finds `x` as it was passed in. -/
theorem xArr_eq (c : Dev nD) : xArr m c = m ((c : Thread nD τ).loc main_arg0) := by
  unfold xArr
  show (V m c main_v39 : (⟨2, ![256, 8192]⟩ : Shape).Idx → EReal) = _
  dsimp only [V, hostOps0]
  after_results
  rfl

/-- The bias row the product finds, read as a vector, is the bias argument. -/
theorem bias_eq (c : Dev nD) : rowVec (bArr m c) = m ((c : Thread nD τ).loc main_arg2) := by
  have e : bArr m c = shapeCast S1x8192 (m ((c : Thread nD τ).loc main_arg2)) shapeCasts_S8192_S1x8192 := by
    unfold bArr
    show (V m c main_v41 : (⟨2, ![1, 8192]⟩ : Shape).Idx → EReal) = _
    dsimp only [V, hostOps0]
    after_results
    rfl
  funext i
  unfold rowVec
  rw [e]
  refine shapeCast_apply _ shapeCasts_S8192_S1x8192 (ix2 0 (i 0)) i ?_
  rewrite [Shape.rowMajor_val_one, Shape.rowMajor_val_two]
  show (i 0).val = (0 : Fin 1).val * 8192 + (i 0).val
  show (i 0).val = 0 * 8192 + (i 0).val
  omega

set_option maxRecDepth 8192 in
set_option maxHeartbeats 2000000 in
/-- The dense `W` the product finds is the other program's dense `W` of the same two arguments. -/
theorem wArr_eq (c : Dev nD) :
    wArr m c = Cert.ReferenceIdeal.Read.val_main_v38 (F := Ideal) (m ((c : Thread nD τ).loc main_arg1))
      (m ((c : Thread nD τ).loc main_arg3)) := by
  unfold wArr
  show (V m c main_v40 : (⟨2, ![8192, 8192]⟩ : Shape).Idx → EReal) = _
  dsimp only [V, hostOps0]
  after_results_simp
  refine Eq.trans (truncf_ideal (s := S8192x8192) (φ := .f32) (ψ := .bf16) _ bitsLt_bf16_f32) ?_
  unfold Cert.ReferenceIdeal.Read.val_main_v38 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_c_4 Cert.ReferenceIdeal.Read.val_main_v31 Cert.ReferenceIdeal.Read.val_main_v30 Cert.ReferenceIdeal.Read.val_main_c_3 Cert.ReferenceIdeal.Read.val_main_v29 Cert.ReferenceIdeal.Read.val_main_v28 Cert.ReferenceIdeal.Read.val_main_v27 Cert.ReferenceIdeal.Read.val_main_c_2 Cert.ReferenceIdeal.Read.val_main_v26 Cert.ReferenceIdeal.Read.val_main_v25 Cert.ReferenceIdeal.Read.val_main_c_1 Cert.ReferenceIdeal.Read.val_main_v24 Cert.ReferenceIdeal.Read.val_main_cst Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_c_0 Cert.ReferenceIdeal.Read.val_main_v15 Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_c Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0
  rfl

end Cert.SparseLinear

end
-- ==== Proof.Reference.lean ====
/-
  The other program computes `x · Wᵀ + b` in one pass.

  It transposes its dense `W`, multiplies `x` by the transpose contracting `x`'s columns with the transpose's rows,
  and adds the bias broadcast down the rows. Read at entry `(p, q)`: the product is `∑ k, x[p, k] · Wᵀ[k, q]`, the
  transpose's entry `(k, q)` is `W[q, k]`, and the broadcast bias is `b[q]` — so the entry is
  `∑ k, x[p, k] · W[q, k] + b[q]`, which is `linear`.
-/
import proofs.«130683_j41197326303441_1_alg».proof.Proof.Spec
import proofs.«130683_j41197326303441_1_alg».proof.Proof.Gen.ReferenceIdeal.Read

noncomputable section

namespace Cert.SparseLinear

open Cert.ReferenceIdeal Cert.ReferenceIdeal.Read Idealize.ShloMosaic Idealize.ShloMosaic.ValueIdx

/-- The entry-wise computation with the transposed matrix abstract: if `Wt` is the transpose of `Wr`
    (`Wt[k, q] = Wr[q, k]`), then `∑ k, x[p, k] · Wt[k, q] + b[q]` is entry `(p, q)` of `x · Wrᵀ + b`. -/
theorem reference_core (x0 : (⟨2, ![256, 8192]⟩ : Shape).Idx → EReal) (Wt Wr : (⟨2, ![8192, 8192]⟩ : Shape).Idx → EReal)
    (x2 : (⟨1, ![8192]⟩ : Shape).Idx → EReal) (hW : ∀ i : S8192x8192.Idx, Wt i = Wr (idx_main_v39 i))
    (i : S256x8192.Idx) :
    (∑ k : Fin 8192, x0 (lidx_main_v40 i k) * Wt (ridx_main_v40 i k)) + x2 (idx_main_v41 (idx_main_v42 i))
      = linear x0 Wr x2 i := by
  unfold linear
  have e1 : ∀ k : Fin 8192, lidx_main_v40 i k = ix2 (i 0) k := fun k =>
    funext fun a => by match a with | ⟨0, _⟩ => rfl | ⟨1, _⟩ => rfl
  have e2 : ∀ k : Fin 8192, idx_main_v39 (ridx_main_v40 i k) = ix2 (i 1) k := fun k =>
    funext fun a => by match a with | ⟨0, _⟩ => rfl | ⟨1, _⟩ => rfl
  have e3 : idx_main_v41 (idx_main_v42 i) = ix1 (i 1) := funext fun a => by match a with | ⟨0, _⟩ => rfl
  rw [e3]
  refine congrArg (· + x2 (ix1 (i 1))) (Finset.sum_congr rfl fun k _ => ?_)
  rw [hW, e1, e2]
  rfl

/-- The other program's result is `x · Wᵀ + b` of its arguments, with `W` its dense matrix stage. -/
theorem reference_eq (x0 : (⟨S256x8192, .f32⟩ : BufTy).Contents (Elt Ideal)) (x1 : (⟨S4194304, .f32⟩ : BufTy).Contents (Elt Ideal))
    (x2 : (⟨S8192, .f32⟩ : BufTy).Contents (Elt Ideal)) (x3 : (⟨S2x16384, .i32⟩ : BufTy).Contents (Elt Ideal)) :
    val_main_v43 (F := Ideal) x0 x1 x2 x3 = linear x0 (val_main_v38 (F := Ideal) x1 x3) x2 := by
  funext i
  rw [val_main_v43_apply, val_main_v40_apply, val_main_v42_apply, val_main_v41_apply]
  exact reference_core x0 (val_main_v39 (F := Ideal) x1 x3) (val_main_v38 (F := Ideal) x1 x3) x2
    (val_main_v39_apply x1 x3) i

end Cert.SparseLinear

end
-- ==== Proof.lean ====
/-
  A block-sparse linear layer: `y = x · Wᵀ + b`, with `x` a 256 × 8192 matrix, `b` a vector of 8192 entries, and `W`
  the dense 8192 × 8192 matrix obtained by scattering 4,194,304 values, with accumulation, to positions computed from
  a list of 16384 edges (each edge a 16 × 16 block).

  Both programs build the same `W` by the same operations on the same two arguments. One then forms `x · Wᵀ + b` in a
  single pass. The other cuts the result into four column tiles of 2048 and the contracted axis into four blocks of
  2048: for each tile it starts an accumulator at zero, adds the four partial products block by block, and after the
  last block adds the bias and writes the tile. Its operands are narrowed to a 16-bit format first.

  Over the extended reals narrowing is the identity and the two ways of adding differ only in grouping: a sum over
  `2048 · 4` positions is the sum of its four blocks' sums, by associativity and commutativity of addition alone. So
  the two results are equal entry by entry for ALL inputs; finiteness of the inputs is not used.

  The modules: Spec (the function `linear` and the regrouping), Payload (the body's arithmetic at one entry), Pieces
  (what one run of the body leaves, as values), Arrays (the operands' blocks, the result's blocks and their cover),
  Accum (the accumulator over the grid and the result array), Host (the arrays the product finds, from the
  arguments), Reference (the single-pass program is `linear`). The three frames are the generated ones (the
  single-pass program's frame is its run with the result dropped); the idealization rewrote nothing.
-/
import proofs.«130683_j41197326303441_1_alg».proof.Defs
import proofs.«130683_j41197326303441_1_alg».proof.Proof.Gen.Kernel
import proofs.«130683_j41197326303441_1_alg».proof.Proof.Gen.Kernel.Skeleton
import proofs.«130683_j41197326303441_1_alg».proof.Proof.Gen.Kernel.Launch
import proofs.«130683_j41197326303441_1_alg».proof.Proof.Gen.Kernel.Points
import proofs.«130683_j41197326303441_1_alg».proof.Proof.Gen.Kernel.Frame
import proofs.«130683_j41197326303441_1_alg».proof.Proof.Gen.KernelIdeal
import proofs.«130683_j41197326303441_1_alg».proof.Proof.Gen.KernelIdeal.Skeleton
import proofs.«130683_j41197326303441_1_alg».proof.Proof.Gen.KernelIdeal.Launch
import proofs.«130683_j41197326303441_1_alg».proof.Proof.Gen.KernelIdeal.Points
import proofs.«130683_j41197326303441_1_alg».proof.Proof.Gen.KernelIdeal.Frame
import proofs.«130683_j41197326303441_1_alg».proof.Proof.Gen.ReferenceIdeal
import proofs.«130683_j41197326303441_1_alg».proof.Proof.Gen.Pre_finite_inputs
import proofs.«130683_j41197326303441_1_alg».proof.Proof.Gen.KernelIdeal.Value
import proofs.«130683_j41197326303441_1_alg».proof.Proof.Gen.ReferenceIdeal.Run
import proofs.«130683_j41197326303441_1_alg».proof.Proof.Gen.ReferenceIdeal.Read
import proofs.«130683_j41197326303441_1_alg».proof.Proof.Accum
import proofs.«130683_j41197326303441_1_alg».proof.Proof.Host
import proofs.«130683_j41197326303441_1_alg».proof.Proof.Reference
import Idealize.ShloMosaic.Adequacy
import Idealize.ShloMosaic.Init

noncomputable section

namespace Cert.SparseLinear

open Idealize.ShloMosaic Idealize.ShloMosaic.TcCoe Idealize.SL.Sem Cert.KernelIdeal

/-- `x · Wᵀ + b` of the arrays the matrix product finds is `x · Wᵀ + b` of the arguments, with `W` the dense matrix
    stage of the single-pass program. -/
theorem result_eq (m : (ℓ : Loc nD τ sig) → Buf (Elt Ideal) ℓ) (c : Dev nD) :
    result m c = linear (m ((c : Thread nD τ).loc main_arg0))
      (Cert.ReferenceIdeal.Read.val_main_v38 (F := Ideal) (m ((c : Thread nD τ).loc main_arg1))
        (m ((c : Thread nD τ).loc main_arg3)))
      (m ((c : Thread nD τ).loc main_arg2)) := by
  unfold result
  rw [xArr_eq, wArr_eq, bias_eq]

end Cert.SparseLinear

namespace Cert.Proof

open Idealize.ShloMosaic Idealize.SL.Sem Cert.Kernel

/-- The word-level kernel runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The single-pass program's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with `x · Wᵀ + b` of those arguments: the
    tiled one by the accumulator's fold and the regrouping of the sum, the single-pass one by reading its operations
    at an entry. -/
theorem algebraic : Cert.algebraic_KernelIdeal_ReferenceIdeal := by
  intro m ρ m' ρ' _ hagree
  refine ⟨fun c => Cert.SparseLinear.result m c, Cert.SparseLinear.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.SparseLinear.reference_eq, (hagree c).1, (hagree c).2.1,
    (hagree c).2.2.1, (hagree c).2.2.2]
  exact (Cert.SparseLinear.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
